-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x320000 : Shape := ⟨2, ![2, 320000]⟩
abbrev S10000x256 : Shape := ⟨2, ![10000, 256]⟩
abbrev S256 : Shape := ⟨1, ![256]⟩
abbrev S256x256 : Shape := ⟨2, ![256, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x10000 .f32) (main_arg1 : IVec S2x320000 32) (main_arg2 : FVec F S10000x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S10000x10000 : Shape := ⟨2, ![10000, 10000]⟩
abbrev S2x320000 : Shape := ⟨2, ![2, 320000]⟩
abbrev S10000x256 : Shape := ⟨2, ![10000, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S200x10000 : Shape := ⟨2, ![200, 10000]⟩
abbrev S200x256 : Shape := ⟨2, ![200, 256]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩

abbrev nBuf : Space → Nat
  | .hbm => 134
  | .vmem => 15
  | .smem => 0
  | _ => 0

abbrev hbmTy0_0 (i : Nat) : BufTy := match i % 128 with
  | 0 => ⟨S10000x10000, .f32⟩
  | 1 => ⟨S2x320000, .i32⟩
  | 2 => ⟨S10000x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S1x320000, .i32⟩
  | 9 => ⟨S320000, .i32⟩
  | 10 => ⟨S1x320000, .i32⟩
  | 11 => ⟨S320000, .i32⟩
  | 12 => ⟨S10000x256, .f32⟩
  | 13 => ⟨S10000, .i32⟩
  | 14 => ⟨S330000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S330000, .f32⟩
  | 39 => ⟨S_, .i32⟩
  | 40 => ⟨S330000, .i32⟩
  | 41 => ⟨S330000, .i1⟩
  | 42 => ⟨S_, .i32⟩
  | 43 => ⟨S330000, .i32⟩
  | 44 => ⟨S330000, .i32⟩
  | 45 => ⟨S330000, .i32⟩
  | 46 => ⟨S330000x1, .i32⟩
  | 47 => ⟨S330000, .f32⟩
  | 48 => ⟨S330000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000x256, .f32⟩
  | 58 => ⟨S330000x1, .f32⟩
  | 59 => ⟨S330000x256, .f32⟩
  | 60 => ⟨S330000x256, .f32⟩
  | 61 => ⟨S_, .f32⟩
  | 62 => ⟨S10000x256, .f32⟩
  | 63 => ⟨S330000x1, .i32⟩
  | 64 => ⟨S10000x256, .f32⟩
  | 65 => ⟨S1x256, .f32⟩
  | 66 => ⟨S10000x256, .f32⟩
  | 67 => ⟨S10000x256, .f32⟩
  | 68 => ⟨S_, .f32⟩
  | 69 => ⟨S10000x256, .f32⟩
  | 70 => ⟨S10000x256, .f32⟩
  | 71 => ⟨S10000x256, .f32⟩
  | 72 => ⟨S10000, .i32⟩
  | 73 => ⟨S330000, .i32⟩
  | 74 => ⟨S330000, .i32⟩
  | 75 => ⟨S_, .f32⟩
  | 76 => ⟨S330000, .f32⟩
  | 77 => ⟨S_, .f32⟩
  | 78 => ⟨S10000, .f32⟩
  | 79 => ⟨S330000x1, .i32⟩
  | 80 => ⟨S10000, .f32⟩
  | 81 => ⟨S_, .f32⟩
  | 82 => ⟨S10000, .f32⟩
  | 83 => ⟨S10000, .i1⟩
  | 84 => ⟨S10000, .f32⟩
  | 85 => ⟨S_, .f32⟩
  | 86 => ⟨S_, .f32⟩
  | 87 => ⟨S10000, .f32⟩
  | 88 => ⟨S10000, .f32⟩
  | 89 => ⟨S_, .i32⟩
  | 90 => ⟨S330000, .i32⟩
  | 91 => ⟨S330000, .i1⟩
  | 92 => ⟨S_, .i32⟩
  | 93 => ⟨S330000, .i32⟩
  | 94 => ⟨S330000, .i32⟩
  | 95 => ⟨S330000, .i32⟩
  | 96 => ⟨S330000x1, .i32⟩
  | 97 => ⟨S330000, .f32⟩
  | 98 => ⟨S_, .i32⟩
  | 99 => ⟨S330000, .i32⟩
  | 100 => ⟨S330000, .i1⟩
  | 101 => ⟨S_, .i32⟩
  | 102 => ⟨S330000, .i32⟩
  | 103 => ⟨S330000, .i32⟩
  | 104 => ⟨S330000, .i32⟩
  | 105 => ⟨S330000x1, .i32⟩
  | 106 => ⟨S330000, .f32⟩
  | 107 => ⟨S330000, .f32⟩
  | 108 => ⟨S_, .i32⟩
  | 109 => ⟨S330000, .i32⟩
  | 110 => ⟨S330000, .i1⟩
  | 111 => ⟨S_, .i32⟩
  | 112 => ⟨S330000, .i32⟩
  | 113 => ⟨S330000, .i32⟩
  | 114 => ⟨S330000, .i32⟩
  | 115 => ⟨S330000x1, .i32⟩
  | 116 => ⟨S330000x256, .f32⟩
  | 117 => ⟨S330000x1, .f32⟩
  | 118 => ⟨S330000x256, .f32⟩
  | 119 => ⟨S330000x256, .f32⟩
  | 120 => ⟨S_, .f32⟩
  | 121 => ⟨S10000x256, .f32⟩
  | 122 => ⟨S330000x1, .i32⟩
  | 123 => ⟨S10000x256, .f32⟩
  | 124 => ⟨S1x256, .f32⟩
  | 125 => ⟨S10000x256, .f32⟩
  | 126 => ⟨S10000x256, .f32⟩
  | 127 => ⟨S_, .f32⟩
  | _ => ⟨S10000x10000, .f32⟩

abbrev hbmTy0_1 (i : Nat) : BufTy := match i % 128 with
  | 0 => ⟨S10000x256, .f32⟩
  | 1 => ⟨S10000x256, .f32⟩
  | 2 => ⟨S10000x256, .f32⟩
  | 3 => ⟨S1x256, .f32⟩
  | 4 => ⟨S10000x256, .f32⟩
  | 5 => ⟨S10000x256, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S200x256, .f32⟩
  | .local _ .vmem, ⟨4, _⟩ => ⟨S200x256, .f32⟩
  | .local _ .vmem, ⟨5, _⟩ => ⟨S200x256, .f32⟩
  | .local _ .vmem, ⟨6, _⟩ => ⟨S200x256, .f32⟩
  | .local _ .vmem, ⟨7, _⟩ => ⟨S256x256, .f32⟩
  | .local _ .vmem, ⟨8, _⟩ => ⟨S200x256, .f32⟩
  | .local _ .vmem, ⟨9, _⟩ => ⟨S200x256, .f32⟩
  | .local _ .vmem, ⟨10, _⟩ => ⟨S200x256, .f32⟩
  | .local _ .vmem, ⟨11, _⟩ => ⟨S200x256, .f32⟩
  | .local _ .vmem, ⟨12, _⟩ => ⟨S256x256, .f32⟩
  | .local _ .vmem, ⟨13, _⟩ => ⟨S200x256, .f32⟩
  | .local _ .vmem, ⟨14, _⟩ => ⟨S200x256, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  inb_S200x256_S200x256_0_0 : ∀ a, (![0, 0] : Fin 2 → Nat) a + S200x256.size a ≤ S200x256.size a
  h_S200x256 : 0 < S200x256.numel
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S200x256_S200x256 : S200x256.ShapeCasts S200x256
  inb_S256x256_S256x256_0_0 : ∀ a, (![0, 0] : Fin 2 → Nat) a + S256x256.size a ≤ S256x256.size a
  h_S256x256 : 0 < S256x256.numel
  dot_S200x10000_S10000x256_S200x256_1_0_0_1_n_n_wf : DotDims.WF S200x10000 S10000x256 S200x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x256.size a ≤ S10000x256.size a
  hwx0_2 : ∀ i : grid0.Coords, EltTy.bits .f32 = 32 ∨ (Rect.block (s := S10000x256) S200x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x256.size a ≤ S10000x256.size a
  hwx1_0 : ∀ i : grid1.Coords, EltTy.bits .f32 = 32 ∨ (Rect.block (s := S10000x256) S200x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x256.size a ≤ S10000x256.size a
  hwx1_2 : ∀ i : grid1.Coords, EltTy.bits .f32 = 32 ∨ (Rect.block (s := S10000x256) S200x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x256.size a ≤ S10000x256.size a
  hwx2_0 : ∀ i : grid2.Coords, EltTy.bits .f32 = 32 ∨ (Rect.block (s := S10000x256) S200x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x256.size a ≤ S10000x256.size a
  hwx2_2 : ∀ i : grid2.Coords, EltTy.bits .f32 = 32 ∨ (Rect.block (s := S10000x256) S200x256.size (cc2_transform_2 i) (hinb2_2 i)).WholeWords (EltTy.packing .f32)

variable [Facts₀]

def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S200x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S200x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S200x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S200x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S200x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S2x320000 : Shape := ⟨2, ![2, 320000]⟩
abbrev S10000x256 : Shape := ⟨2, ![10000, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩

abbrev nBuf : Space → Nat
  | .hbm => 134
  | .vmem => 0
  | .smem => 0
  | _ => 0

abbrev hbmTy0_0 (i : Nat) : BufTy := match i % 128 with
  | 0 => ⟨S10000x10000, .f32⟩
  | 1 => ⟨S2x320000, .i32⟩
  | 2 => ⟨S10000x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S1x320000, .i32⟩
  | 9 => ⟨S320000, .i32⟩
  | 10 => ⟨S1x320000, .i32⟩
  | 11 => ⟨S320000, .i32⟩
  | 12 => ⟨S10000x256, .f32⟩
  | 13 => ⟨S10000, .i32⟩
  | 14 => ⟨S330000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S330000, .f32⟩
  | 39 => ⟨S_, .i32⟩
  | 40 => ⟨S330000, .i32⟩
  | 41 => ⟨S330000, .i1⟩
  | 42 => ⟨S_, .i32⟩
  | 43 => ⟨S330000, .i32⟩
  | 44 => ⟨S330000, .i32⟩
  | 45 => ⟨S330000, .i32⟩
  | 46 => ⟨S330000x1, .i32⟩
  | 47 => ⟨S330000, .f32⟩
  | 48 => ⟨S330000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000x256, .f32⟩
  | 58 => ⟨S330000x1, .f32⟩
  | 59 => ⟨S330000x256, .f32⟩
  | 60 => ⟨S330000x256, .f32⟩
  | 61 => ⟨S_, .f32⟩
  | 62 => ⟨S10000x256, .f32⟩
  | 63 => ⟨S330000x1, .i32⟩
  | 64 => ⟨S10000x256, .f32⟩
  | 65 => ⟨S1x256, .f32⟩
  | 66 => ⟨S10000x256, .f32⟩
  | 67 => ⟨S10000x256, .f32⟩
  | 68 => ⟨S_, .f32⟩
  | 69 => ⟨S10000x256, .f32⟩
  | 70 => ⟨S10000x256, .f32⟩
  | 71 => ⟨S10000x256, .f32⟩
  | 72 => ⟨S10000, .i32⟩
  | 73 => ⟨S330000, .i32⟩
  | 74 => ⟨S330000, .i32⟩
  | 75 => ⟨S_, .f32⟩
  | 76 => ⟨S330000, .f32⟩
  | 77 => ⟨S_, .f32⟩
  | 78 => ⟨S10000, .f32⟩
  | 79 => ⟨S330000x1, .i32⟩
  | 80 => ⟨S10000, .f32⟩
  | 81 => ⟨S_, .f32⟩
  | 82 => ⟨S10000, .f32⟩
  | 83 => ⟨S10000, .i1⟩
  | 84 => ⟨S10000, .f32⟩
  | 85 => ⟨S_, .f32⟩
  | 86 => ⟨S_, .f32⟩
  | 87 => ⟨S10000, .f32⟩
  | 88 => ⟨S10000, .f32⟩
  | 89 => ⟨S_, .i32⟩
  | 90 => ⟨S330000, .i32⟩
  | 91 => ⟨S330000, .i1⟩
  | 92 => ⟨S_, .i32⟩
  | 93 => ⟨S330000, .i32⟩
  | 94 => ⟨S330000, .i32⟩
  | 95 => ⟨S330000, .i32⟩
  | 96 => ⟨S330000x1, .i32⟩
  | 97 => ⟨S330000, .f32⟩
  | 98 => ⟨S_, .i32⟩
  | 99 => ⟨S330000, .i32⟩
  | 100 => ⟨S330000, .i1⟩
  | 101 => ⟨S_, .i32⟩
  | 102 => ⟨S330000, .i32⟩
  | 103 => ⟨S330000, .i32⟩
  | 104 => ⟨S330000, .i32⟩
  | 105 => ⟨S330000x1, .i32⟩
  | 106 => ⟨S330000, .f32⟩
  | 107 => ⟨S330000, .f32⟩
  | 108 => ⟨S_, .i32⟩
  | 109 => ⟨S330000, .i32⟩
  | 110 => ⟨S330000, .i1⟩
  | 111 => ⟨S_, .i32⟩
  | 112 => ⟨S330000, .i32⟩
  | 113 => ⟨S330000, .i32⟩
  | 114 => ⟨S330000, .i32⟩
  | 115 => ⟨S330000x1, .i32⟩
  | 116 => ⟨S330000x256, .f32⟩
  | 117 => ⟨S330000x1, .f32⟩
  | 118 => ⟨S330000x256, .f32⟩
  | 119 => ⟨S330000x256, .f32⟩
  | 120 => ⟨S_, .f32⟩
  | 121 => ⟨S10000x256, .f32⟩
  | 122 => ⟨S330000x1, .i32⟩
  | 123 => ⟨S10000x256, .f32⟩
  | 124 => ⟨S1x256, .f32⟩
  | 125 => ⟨S10000x256, .f32⟩
  | 126 => ⟨S10000x256, .f32⟩
  | 127 => ⟨S_, .f32⟩
  | _ => ⟨S10000x10000, .f32⟩

abbrev hbmTy0_1 (i : Nat) : BufTy := match i % 128 with
  | 0 => ⟨S10000x256, .f32⟩
  | 1 => ⟨S10000x256, .f32⟩
  | 2 => ⟨S10000x256, .f32⟩
  | 3 => ⟨S1x256, .f32⟩
  | 4 => ⟨S10000x256, .f32⟩
  | 5 => ⟨S10000x256, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x10000_S10000x256_S10000x256_1_0_0_1_n_n_wf : DotDims.WF S10000x10000 S10000x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x256_S10000x256_1_0_0_1_n_n_wf : DotDims.WF S10000x256 S256x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The idealized kernel's run, with its result named.

  The program is thirteen segments: host stretches and three tiled regions. Every weakly fair execution from any
  memory with zero counters terminates without a fault, and at the end every buffer that lives for the whole program
  holds the contents obtained by folding the segments over the launch memory: a host stretch applies its operations,
  a region replaces its arrays by what its write-backs leave. The statement below reads that final state at the
  result buffer and at the eight argument buffers; the arguments are written by no segment, so they end as launched.
-/
import proofs.«134955_j37383395345042_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold of the thirteen
    segments over the launch memory, and the argument arrays end as launched. -/
theorem run_result : θ_run defs (onTc (τ := τ) (main (F := F))) ⟨m, fun _ => 0, ρ⟩ (fun r => ∀ c : Dev nD,
      r.2.mem ((c.tc : Thread nD τ).loc main_v95) = W13 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v95 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Run

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Network.lean ====
/-
  The graph network both programs compute, as one function of the eight arguments.

  From the 2 × 320000 edge array take the row of sources and the row of targets. One layer, given a feature matrix
  h (10000 × 256, already multiplied by the layer's weights) and a bias row b, does what a symmetric-normalised graph
  convolution does:
    * append the 10000 self loops to both edge rows (330000 edges);
    * deg = number of edges into each node (a scatter-add of ones at the targets into zeros);
    * dinv = 1/√deg where deg > 0, else 0;
    * norm(e) = dinv[source e] · dinv[target e], an index below zero first shifted up by 10000, as a gather does;
    * message(e) = h[source e] · norm(e), along the whole row of 256 features;
    * out = scatter-add of the messages at the targets into zeros, plus b on every row, then max with 0.
  The network is  readout (layer (layer (x · W1) b1 · W2) b2 · Wf) bf  with readout h b = h + b on every row.

  The three products are plain matrix products on the extended reals. Everything else is the host operations spelt
  once; both programs are shown to compute this very function, so none of the layer's operations is ever opened.
-/
import proofs.«134955_j37383395345042_1_alg».proof.KernelIdeal
import Idealize.ShloMosaic.PureOps.Ideal

noncomputable section

namespace Cert.KernelIdeal.Net

open Idealize.ShloMosaic Cert.KernelIdeal

variable [Facts₀]
open Facts₀

/-- Float and 32-bit integer arrays on the extended reals. -/
abbrev FArr (s : Shape) : Type := FVec Ideal s .f32
abbrev IArr (s : Shape) : Type := IVec s 32

/-- Row 0 of the edge array: the sources. -/
def sources (e : IArr S2x320000) : IArr S320000 :=
  shapeCast S320000 (extractStridedSlice S1x320000 ![0, 0] e slices_S2x320000_S1x320000_0_0) shapeCasts_S1x320000_S320000

/-- Row 1 of the edge array: the targets. -/
def targets (e : IArr S2x320000) : IArr S320000 :=
  shapeCast S320000 (extractStridedSlice S1x320000 ![1, 0] e slices_S2x320000_S1x320000_1_0) shapeCasts_S1x320000_S320000

/-- An edge row with the 10000 self loops appended. -/
def withLoops (v : IArr S320000) : IArr S330000 :=
  concatenate S330000 0 [⟨S320000, v⟩, ⟨S10000, (iotaInDim S10000 32 0 : IArr S10000)⟩] concatenates_S320000_S10000_S330000_d0

/-- A node index as a gather reads it: an index below zero is shifted up by the number of nodes. -/
def wrapped (v : IArr S330000) : IArr S330000 :=
  select (cmpi .slt v (broadcastInDim S330000 ![] bcast_S_S330000 (constantI S_ 32 0#32 : IArr S_)))
    (addi v (broadcastInDim S330000 ![] bcast_S_S330000 (constantI S_ 32 10000#32 : IArr S_))) v

/-- An index row as the [330000, 1] column of start indices a gather or scatter takes. -/
def column (v : IArr S330000) : IArr S330000x1 := broadcastInDim S330000x1 ![0] bcast_S330000_S330000x1_0 v

/-- The scalar zero, and arrays of zeros. -/
def zero : FArr S_ := constant (F := Ideal) S_ .f32 0x00000000#32

/-- In-degrees with self loops: ones scattered at the targets into zeros. -/
def degrees (t : IArr S330000) : FArr S10000 :=
  Host.scatterAdd (F := Ideal) scatter_S10000_S330000x1_S330000_n_0_0_1 (broadcastInDim S10000 ![] bcast_S_S10000 zero) (column t)
    (broadcastInDim S330000 ![] bcast_S_S330000 (constant (F := Ideal) S_ .f32 0x3F800000#32))

/-- 1/√deg where the degree is positive, zero elsewhere. -/
def invSqrt (deg : FArr S10000) : FArr S10000 :=
  select (cmpf (F := Ideal) .ogt deg (broadcastInDim S10000 ![] bcast_S_S10000 zero)) (Host.rsqrt (F := Ideal) deg)
    (broadcastInDim S10000 ![] bcast_S_S10000 (id zero))

/-- The edge weights dinv[source] · dinv[target]. -/
def edgeNorm (s t : IArr S330000) : FArr S330000 :=
  mulf (F := Ideal) (Host.gather gather_S10000_S330000x1_S330000_n_0_n_n_0_1_1 (invSqrt (degrees t)) (column (wrapped s)))
    (Host.gather gather_S10000_S330000x1_S330000_n_0_n_n_0_1_1 (invSqrt (degrees t)) (column (wrapped t)))

/-- One layer after its product: gather the source rows, weight them, scatter-add at the targets, add the bias, max with 0. -/
def layer (src dst : IArr S320000) (h : FArr S10000x256) (b : FArr S256) : FArr S10000x256 :=
  maximumf (F := Ideal)
    (addf (F := Ideal)
      (Host.scatterAdd (F := Ideal) scatter_S10000x256_S330000x1_S330000x256_1_0_0_1 (broadcastInDim S10000x256 ![] bcast_S_S10000x256 zero)
        (column (withLoops dst))
        (mulf (F := Ideal)
          (Host.gather gather_S10000x256_S330000x1_S330000x256_1_0_n_n_0_1_1256 h (column (wrapped (withLoops src))))
          (broadcastInDim S330000x256 ![0, 1] bcast_S330000x1_S330000x256_0_1
            (broadcastInDim S330000x1 ![0] bcast_S330000_S330000x1_0 (edgeNorm (withLoops src) (withLoops dst))))))
      (broadcastInDim S10000x256 ![0, 1] bcast_S1x256_S10000x256_0_1 (broadcastInDim S1x256 ![1] bcast_S256_S1x256_1 b)))
    (broadcastInDim S10000x256 ![] bcast_S_S10000x256 zero)

/-- The readout after its product: the bias on every row. -/
def readout (h : FArr S10000x256) (b : FArr S256) : FArr S10000x256 :=
  addf (F := Ideal) h (broadcastInDim S10000x256 ![0, 1] bcast_S1x256_S10000x256_0_1 (broadcastInDim S1x256 ![1] bcast_S256_S1x256_1 b))

/-- The product of the 10000 × 10000 input by the first weights. -/
def inputProduct (x : FArr S10000x10000) (w : FArr S10000x256) : FArr S10000x256 :=
  Host.dotGeneral (F := Ideal) (φ₁ := .f32) (φ₂ := .f32) (DotDims.plain 10000 10000 256) none x w

/-- The product of a 10000 × 256 feature matrix by 256 × 256 weights. -/
def featureProduct (h : FArr S10000x256) (w : FArr S256x256) : FArr S10000x256 :=
  Host.dotGeneral (F := Ideal) (φ₁ := .f32) (φ₂ := .f32) (DotDims.plain 10000 256 256) none h w

/-- The whole network. -/
def network (x : FArr S10000x10000) (e : IArr S2x320000) (w1 : FArr S10000x256) (b1 : FArr S256) (w2 : FArr S256x256) (b2 : FArr S256)
    (wf : FArr S256x256) (bf : FArr S256) : FArr S10000x256 :=
  readout (featureProduct (layer (sources e) (targets e) (featureProduct (layer (sources e) (targets e) (inputProduct x w1) b1) w2) b2) wf) bf

end Cert.KernelIdeal.Net

end
-- ==== Proof.ProductInput.lean ====
/-
  The first dense product, x · W1, as the first tiled region leaves it.

  The region walks 50 grid points. At point t it loads rows 200·t … 200·t + 199 of the input x (all 10000 columns)
  and the whole of the weights W1, multiplies the two blocks into a zero accumulator, and writes the 200 × 256 result back
  as rows 200·t … 200·t + 199 of the output array. On the extended reals a change of float format is the identity
  and a product into the zero accumulator is the plain sum over the contracted index, so entry (p, q) of what point t
  writes is  ∑ k, left (200·t + p, k) · right (k, q),  which is entry (200·t + p, q) of the whole product. The 50 row
  blocks tile the 10000 rows, so after the last point the output array IS the whole product of the two arrays as the
  region found them. The other two arrays of the region are only read, and end as they were entered.

  Read as one step of the surrounding host program, the region therefore acts exactly like a single two-operand
  operation that writes the product into the output buffer and leaves every other buffer alone.
-/
import proofs.«134955_j37383395345042_1_alg».proof.Proof.Gen.KernelIdeal.Frame
import proofs.«134955_j37383395345042_1_alg».proof.Proof.LibPlainDot
import proofs.«134955_j37383395345042_1_alg».proof.Proof.Network
import Idealize.ShloMosaic.Lib.Pipeline.Value
import Idealize.ShloMosaic.Lib.ValueIdx
import Idealize.ShloMosaic.Lib.StableHlo.Run

set_option maxRecDepth 16384

noncomputable section

namespace Cert.KernelIdeal.ProductInput

open Idealize.ShloMosaic Idealize.ShloMosaic.TcCoe Idealize.ShloMosaic.ValueIdx Idealize.SL.Sem
open Cert.KernelIdeal Cert.KernelIdeal.Gen
open Idealize.ShloMosaic.Pipeline (Dat)

/-- The all-zero offset, in the two spellings the library and the printed rectangles use. -/
theorem zeros : (![0, 0] : Fin 2 → Nat) = fun _ => 0 := funext fun a => by fin_cases a <;> rfl

/-- The whole product of a 10000 × 10000 array by a 10000 × 256 array. -/
abbrev product (a : S10000x10000.Idx → EReal) (b : S10000x256.Idx → EReal) : S10000x256.Idx → EReal :=
  Host.dotGeneral (F := Ideal) (φ₁ := .f32) (φ₂ := .f32) (DotDims.plain 10000 10000 256) none a b

/-- What the body computes from its two blocks, at an entry: the sum over the contracted index. -/
theorem block_entry (x0 : Vec Ideal S200x10000 .f32) (x1 : Vec Ideal S10000x256 .f32) (y : S200x256.Idx) :
    k0_pay1 x0 x1 y = ∑ k : Fin 10000, x0 (ix2 (y 0) k) * x1 (ix2 k (y 1)) :=
  PlainDot.matmul_zero_apply (M := 200) (K := 10000) (N := 256) dot_S200x10000_S10000x256_S200x256_1_0_0_1_n_n rfl none
    (truncf .bf16 x0 bitsLt_bf16_f32) (truncf .bf16 x1 bitsLt_bf16_f32) y

/-- The printed index maps over the 50 points: the left window and the output window sit on row block t, and every
    other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region

variable (V : (c : Dev nD) → (b : Ref sig .tc) → Buf (Elt Ideal) ((c : Thread nD τ).loc b))

/-- What point t writes back is block t of the whole product. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeros]
  simp only [View.ld_unit_zero (S := S200x10000) zeros, View.ld_unit_zero (S := S10000x256) zeros]
  obtain ⟨e0, e1, e2, e3, e4, e5⟩ := index_facts t
  funext j
  show k0_pay1 (iblk0 V c 0 t) (iblk0 V c 1 t) j
    = product (V c main_arg0) (V c main_arg2) (((cfg0.win 2).blk t).view.emb j)
  refine (block_entry (iblk0 V c 0 t) (iblk0 V c 1 t) j).trans ?_
  refine Eq.trans ?_ (PlainDot.hostDot_apply (M := 10000) (K := 10000) (N := 256) (DotDims.plain 10000 10000 256) rfl none
    (V c main_arg0) (V c main_arg2) (((cfg0.win 2).blk t).view.emb j)).symm
  refine Finset.sum_congr rfl fun k _ => ?_
  have hl : ((cfg0.win 0).blk t).view.emb (ix2 (j 0) k) = ix2 ((((cfg0.win 2).blk t).view.emb j) 0) k := by
    funext a; apply Fin.ext
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * k.val = k.val; omega
  have hr : ((cfg0.win 1).blk t).view.emb (ix2 k (j 1)) = ix2 k ((((cfg0.win 2).blk t).view.emb j) 1) := by
    funext a; apply Fin.ext
    match a with
    | ⟨0, _⟩ => show win0_1.index t (0 : Fin 2) * 10000 + 1 * k.val = k.val; omega
    | ⟨1, _⟩ => show win0_1.index t (1 : Fin 2) * 256 + 1 * (j 1).val = win0_2.index t (1 : Fin 2) * 256 + 1 * (j 1).val; omega
  have key : ∀ (A : S10000x10000.Idx → EReal) (B : S10000x256.Idx → EReal),
      A (((cfg0.win 0).blk t).view.emb (ix2 (j 0) k)) * B (((cfg0.win 1).blk t).view.emb (ix2 k (j 1)))
        = A (ix2 ((((cfg0.win 2).blk t).view.emb j) 0) k) * B (ix2 k ((((cfg0.win 2).blk t).view.emb j) 1)) :=
    fun A B => congrArg₂ (fun a b => A a * B b) hl hr
  exact key (V c main_arg0) (V c main_arg2)

/-- An index of the output array lies in point t's block iff each coordinate lies in the block's range. -/
theorem mem_block (t : Fin cfg0.N) (i : S10000x256.Idx) :
    i ∈ ((cfg0.win 2).blk t).view.set ↔ ∀ a : Fin 2, win0_2.index t a * S200x256.size a ≤ (i a).val ∧ (i a).val < win0_2.index t a * S200x256.size a + S200x256.size a := by
  show i ∈ ((View.whole main_v4).slice (win0_2.rect t)).set ↔ _
  rw [View.set_slice_whole, Rect.mem_set_unit]
  exact Iff.rfl

/-- The 50 row blocks tile the output array: row r lies in block r / 200. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 50 := N_0
  refine ⟨⟨(i 0).val / 200, by rw [hN]; omega⟩, flush0_2 _, ?_⟩
  obtain ⟨-, -, -, -, e4, e5⟩ := index_facts ⟨(i 0).val / 200, by rw [hN]; omega⟩
  rw [mem_block]
  intro a
  match a with
  | ⟨0, _⟩ =>
    show win0_2.index ⟨(i 0).val / 200, _⟩ (0 : Fin 2) * 200 ≤ (i 0).val ∧ (i 0).val < win0_2.index ⟨(i 0).val / 200, _⟩ (0 : Fin 2) * 200 + 200
    rw [e4]; show (i 0).val / 200 * 200 ≤ (i 0).val ∧ (i 0).val < (i 0).val / 200 * 200 + 200; omega
  | ⟨1, _⟩ =>
    show win0_2.index ⟨(i 0).val / 200, _⟩ (1 : Fin 2) * 256 ≤ (i 1).val ∧ (i 1).val < win0_2.index ⟨(i 0).val / 200, _⟩ (1 : Fin 2) * 256 + 256
    rw [e5]; omega

/-- After the region the output array is the whole product of the two arrays as the region found them. -/
theorem output_eq (c : Dev nD) : (dat0 V c).arrAt 2 cfg0.N = product (V c main_arg0) (V c main_arg2) :=
  (dat0 V c).arrAt_eq_of_cover 2 _ (fun t _ => flushed_eq V c t) cover

end Region

/-! ## The region as one host operation -/

/-- One two-operand operation: the product of the two input buffers, written into the output buffer. -/
abbrev asOp : HloOp τ sig (Elt Ideal) :=
  StableHlo.binary main_arg0 main_arg2 main_v4
    ((fun l r => Net.inputProduct l r) : (⟨S10000x10000, .f32⟩ : BufTy).Contents (Elt Ideal) → (⟨S10000x256, .f32⟩ : BufTy).Contents (Elt Ideal) → (⟨S10000x256, .f32⟩ : BufTy).Contents (Elt Ideal))

/-- What the region leaves — its output array at what the write-backs fold to, every other buffer as entered — is
    what that one operation leaves: the output buffer holds the product, and nothing else changes. -/
theorem exit_eq (Wc : Dev nD → Valuation τ sig (Elt Ideal)) (c : Dev nD) :
    Pipeline.withArrays spec0 c (Wc c) (fun w => (dat0 (fun c b => Wc c b) c).arrAt w cfg0.N) = asOp.result (Wc c) := by
  funext b
  by_cases h : b = Proc.devRef .tc main_v4
  · subst h
    refine (Pipeline.withArrays_arr spec0 launch0.win.arr_inj c _ _ 2).trans ?_
    refine (output_eq _ c).trans ?_
    exact (StableHlo.binary_result main_arg0 main_arg2 main_v4 _ _ _ _ (Wc c)).symm
  · have hb : b ∉ (asOp : HloOp τ sig (Elt Ideal)).writes := by
      show b ∉ ({Proc.devRef .tc main_v4} : Finset (DevRef τ sig))
      rw [Finset.mem_singleton]; exact h
    rw [HloOp.result_of_not_mem asOp (Wc c) hb]
    by_cases h' : ∃ w, Proc.devRef .tc (Pipeline.arrRef spec0 w) = b
    · obtain ⟨w, rfl⟩ := h'
      rw [Pipeline.withArrays_arr spec0 launch0.win.arr_inj]
      match w with
      | ⟨0, _⟩ => exact ((dat0 _ c).arrAt_in 0 rfl cfg0.N).trans (A_eq0 _ c 0)
      | ⟨1, _⟩ => exact ((dat0 _ c).arrAt_in 1 rfl cfg0.N).trans (A_eq0 _ c 1)
      | ⟨2, _⟩ => exact absurd rfl h
    · unfold Pipeline.withArrays; rw [dif_neg h']

end Cert.KernelIdeal.ProductInput

end
-- ==== Proof.ProductHidden.lean ====
/-
  The second dense product, h · W2, as the second tiled region leaves it (h the first layer's output).

  The region walks 50 grid points. At point t it loads rows 200·t … 200·t + 199 of the first layer's output h (all 256 columns)
  and the whole of the weights W2, multiplies the two blocks into a zero accumulator, and writes the 200 × 256 result back
  as rows 200·t … 200·t + 199 of the output array. On the extended reals a change of float format is the identity
  and a product into the zero accumulator is the plain sum over the contracted index, so entry (p, q) of what point t
  writes is  ∑ k, left (200·t + p, k) · right (k, q),  which is entry (200·t + p, q) of the whole product. The 50 row
  blocks tile the 10000 rows, so after the last point the output array IS the whole product of the two arrays as the
  region found them. The other two arrays of the region are only read, and end as they were entered.
  (The body first recasts its left block to its own shape, which changes nothing.)

  Read as one step of the surrounding host program, the region therefore acts exactly like a single two-operand
  operation that writes the product into the output buffer and leaves every other buffer alone.
-/
import proofs.«134955_j37383395345042_1_alg».proof.Proof.Gen.KernelIdeal.Frame
import proofs.«134955_j37383395345042_1_alg».proof.Proof.LibPlainDot
import proofs.«134955_j37383395345042_1_alg».proof.Proof.Network
import Idealize.ShloMosaic.Lib.Pipeline.Value
import Idealize.ShloMosaic.Lib.ValueIdx
import Idealize.ShloMosaic.Lib.StableHlo.Run

set_option maxRecDepth 16384

noncomputable section

namespace Cert.KernelIdeal.ProductHidden

open Idealize.ShloMosaic Idealize.ShloMosaic.TcCoe Idealize.ShloMosaic.ValueIdx Idealize.SL.Sem
open Cert.KernelIdeal Cert.KernelIdeal.Gen
open Idealize.ShloMosaic.Pipeline (Dat)

/-- The all-zero offset, in the two spellings the library and the printed rectangles use. -/
theorem zeros : (![0, 0] : Fin 2 → Nat) = fun _ => 0 := funext fun a => by fin_cases a <;> rfl

/-- The whole product of a 10000 × 256 array by a 256 × 256 array. -/
abbrev product (a : S10000x256.Idx → EReal) (b : S256x256.Idx → EReal) : S10000x256.Idx → EReal :=
  Host.dotGeneral (F := Ideal) (φ₁ := .f32) (φ₂ := .f32) (DotDims.plain 10000 256 256) none a b

/-- What the body computes from its two blocks, at an entry: the sum over the contracted index. -/
theorem block_entry (x0 : Vec Ideal S200x256 .f32) (x1 : Vec Ideal S256x256 .f32) (y : S200x256.Idx) :
    k1_pay1 x0 x1 y = ∑ k : Fin 256, x0 (ix2 (y 0) k) * x1 (ix2 k (y 1)) :=
  (PlainDot.matmul_zero_apply (M := 200) (K := 256) (N := 256) dot_S200x256_S256x256_S200x256_1_0_0_1_n_n rfl none
    (truncf .bf16 (shapeCast S200x256 x0 shapeCasts_S200x256_S200x256) bitsLt_bf16_f32) (truncf .bf16 x1 bitsLt_bf16_f32) y).trans
    (by rw [shapeCast_self x0 shapeCasts_S200x256_S200x256]; rfl)

/-- The printed index maps over the 50 points: the left window and the output window sit on row block t, and every
    other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Region

variable (V : (c : Dev nD) → (b : Ref sig .tc) → Buf (Elt Ideal) ((c : Thread nD τ).loc b))

/-- What point t writes back is block t of the whole product. -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero zeros]
  simp only [View.ld_unit_zero (S := S200x256) zeros, View.ld_unit_zero (S := S256x256) zeros]
  obtain ⟨e0, e1, e2, e3, e4, e5⟩ := index_facts t
  funext j
  show k1_pay1 (iblk1 V c 0 t) (iblk1 V c 1 t) j
    = product (V c main_v47) (V c main_arg4) (((cfg1.win 2).blk t).view.emb j)
  refine (block_entry (iblk1 V c 0 t) (iblk1 V c 1 t) j).trans ?_
  refine Eq.trans ?_ (PlainDot.hostDot_apply (M := 10000) (K := 256) (N := 256) (DotDims.plain 10000 256 256) rfl none
    (V c main_v47) (V c main_arg4) (((cfg1.win 2).blk t).view.emb j)).symm
  refine Finset.sum_congr rfl fun k _ => ?_
  have hl : ((cfg1.win 0).blk t).view.emb (ix2 (j 0) k) = ix2 ((((cfg1.win 2).blk t).view.emb j) 0) k := by
    funext a; apply Fin.ext
    match a with
    | ⟨0, _⟩ => show win1_0.index t (0 : Fin 2) * 200 + 1 * (j 0).val = win1_2.index t (0 : Fin 2) * 200 + 1 * (j 0).val; omega
    | ⟨1, _⟩ => show win1_0.index t (1 : Fin 2) * 256 + 1 * k.val = k.val; omega
  have hr : ((cfg1.win 1).blk t).view.emb (ix2 k (j 1)) = ix2 k ((((cfg1.win 2).blk t).view.emb j) 1) := by
    funext a; apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega
  have key : ∀ (A : S10000x256.Idx → EReal) (B : S256x256.Idx → EReal),
      A (((cfg1.win 0).blk t).view.emb (ix2 (j 0) k)) * B (((cfg1.win 1).blk t).view.emb (ix2 k (j 1)))
        = A (ix2 ((((cfg1.win 2).blk t).view.emb j) 0) k) * B (ix2 k ((((cfg1.win 2).blk t).view.emb j) 1)) :=
    fun A B => congrArg₂ (fun a b => A a * B b) hl hr
  exact key (V c main_v47) (V c main_arg4)

/-- An index of the output array lies in point t's block iff each coordinate lies in the block's range. -/
theorem mem_block (t : Fin cfg1.N) (i : S10000x256.Idx) :
    i ∈ ((cfg1.win 2).blk t).view.set ↔ ∀ a : Fin 2, win1_2.index t a * S200x256.size a ≤ (i a).val ∧ (i a).val < win1_2.index t a * S200x256.size a + S200x256.size a := by
  show i ∈ ((View.whole main_v48).slice (win1_2.rect t)).set ↔ _
  rw [View.set_slice_whole, Rect.mem_set_unit]
  exact Iff.rfl

/-- The 50 row blocks tile the output array: row r lies in block r / 200. -/
theorem cover (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  have hN : cfg1.N = 50 := N_1
  refine ⟨⟨(i 0).val / 200, by rw [hN]; omega⟩, flush1_2 _, ?_⟩
  obtain ⟨-, -, -, -, e4, e5⟩ := index_facts ⟨(i 0).val / 200, by rw [hN]; omega⟩
  rw [mem_block]
  intro a
  match a with
  | ⟨0, _⟩ =>
    show win1_2.index ⟨(i 0).val / 200, _⟩ (0 : Fin 2) * 200 ≤ (i 0).val ∧ (i 0).val < win1_2.index ⟨(i 0).val / 200, _⟩ (0 : Fin 2) * 200 + 200
    rw [e4]; show (i 0).val / 200 * 200 ≤ (i 0).val ∧ (i 0).val < (i 0).val / 200 * 200 + 200; omega
  | ⟨1, _⟩ =>
    show win1_2.index ⟨(i 0).val / 200, _⟩ (1 : Fin 2) * 256 ≤ (i 1).val ∧ (i 1).val < win1_2.index ⟨(i 0).val / 200, _⟩ (1 : Fin 2) * 256 + 256
    rw [e5]; omega

/-- After the region the output array is the whole product of the two arrays as the region found them. -/
theorem output_eq (c : Dev nD) : (dat1 V c).arrAt 2 cfg1.N = product (V c main_v47) (V c main_arg4) :=
  (dat1 V c).arrAt_eq_of_cover 2 _ (fun t _ => flushed_eq V c t) cover

end Region

/-! ## The region as one host operation -/

/-- One two-operand operation: the product of the two input buffers, written into the output buffer. -/
abbrev asOp : HloOp τ sig (Elt Ideal) :=
  StableHlo.binary main_v47 main_arg4 main_v48
    ((fun l r => Net.featureProduct l r) : (⟨S10000x256, .f32⟩ : BufTy).Contents (Elt Ideal) → (⟨S256x256, .f32⟩ : BufTy).Contents (Elt Ideal) → (⟨S10000x256, .f32⟩ : BufTy).Contents (Elt Ideal))

/-- What the region leaves — its output array at what the write-backs fold to, every other buffer as entered — is
    what that one operation leaves: the output buffer holds the product, and nothing else changes. -/
theorem exit_eq (Wc : Dev nD → Valuation τ sig (Elt Ideal)) (c : Dev nD) :
    Pipeline.withArrays spec1 c (Wc c) (fun w => (dat1 (fun c b => Wc c b) c).arrAt w cfg1.N) = asOp.result (Wc c) := by
  funext b
  by_cases h : b = Proc.devRef .tc main_v48
  · subst h
    refine (Pipeline.withArrays_arr spec1 launch1.win.arr_inj c _ _ 2).trans ?_
    refine (output_eq _ c).trans ?_
    exact (StableHlo.binary_result main_v47 main_arg4 main_v48 _ _ _ _ (Wc c)).symm
  · have hb : b ∉ (asOp : HloOp τ sig (Elt Ideal)).writes := by
      show b ∉ ({Proc.devRef .tc main_v48} : Finset (DevRef τ sig))
      rw [Finset.mem_singleton]; exact h
    rw [HloOp.result_of_not_mem asOp (Wc c) hb]
    by_cases h' : ∃ w, Proc.devRef .tc (Pipeline.arrRef spec1 w) = b
    · obtain ⟨w, rfl⟩ := h'
      rw [Pipeline.withArrays_arr spec1 launch1.win.arr_inj]
      match w with
      | ⟨0, _⟩ => exact ((dat1 _ c).arrAt_in 0 rfl cfg1.N).trans (A_eq1 _ c 0)
      | ⟨1, _⟩ => exact ((dat1 _ c).arrAt_in 1 rfl cfg1.N).trans (A_eq1 _ c 1)
      | ⟨2, _⟩ => exact absurd rfl h
    · unfold Pipeline.withArrays; rw [dif_neg h']

end Cert.KernelIdeal.ProductHidden

end
-- ==== Proof.ProductOutput.lean ====
/-
  The readout product, h · Wf, as the third tiled region leaves it (h the second layer's output).

  The region walks 50 grid points. At point t it loads rows 200·t … 200·t + 199 of the second layer's output h (all 256 columns)
  and the whole of the weights Wf, multiplies the two blocks into a zero accumulator, and writes the 200 × 256 result back
  as rows 200·t … 200·t + 199 of the output array. On the extended reals a change of float format is the identity
  and a product into the zero accumulator is the plain sum over the contracted index, so entry (p, q) of what point t
  writes is  ∑ k, left (200·t + p, k) · right (k, q),  which is entry (200·t + p, q) of the whole product. The 50 row
  blocks tile the 10000 rows, so after the last point the output array IS the whole product of the two arrays as the
  region found them. The other two arrays of the region are only read, and end as they were entered.
  (The body first recasts its left block to its own shape, which changes nothing.)

  Read as one step of the surrounding host program, the region therefore acts exactly like a single two-operand
  operation that writes the product into the output buffer and leaves every other buffer alone.
-/
import proofs.«134955_j37383395345042_1_alg».proof.Proof.Gen.KernelIdeal.Frame
import proofs.«134955_j37383395345042_1_alg».proof.Proof.LibPlainDot
import proofs.«134955_j37383395345042_1_alg».proof.Proof.Network
import Idealize.ShloMosaic.Lib.Pipeline.Value
import Idealize.ShloMosaic.Lib.ValueIdx
import Idealize.ShloMosaic.Lib.StableHlo.Run

set_option maxRecDepth 16384

noncomputable section

namespace Cert.KernelIdeal.ProductOutput

open Idealize.ShloMosaic Idealize.ShloMosaic.TcCoe Idealize.ShloMosaic.ValueIdx Idealize.SL.Sem
open Cert.KernelIdeal Cert.KernelIdeal.Gen
open Idealize.ShloMosaic.Pipeline (Dat)

/-- The all-zero offset, in the two spellings the library and the printed rectangles use. -/
theorem zeros : (![0, 0] : Fin 2 → Nat) = fun _ => 0 := funext fun a => by fin_cases a <;> rfl

/-- The whole product of a 10000 × 256 array by a 256 × 256 array. -/
abbrev product (a : S10000x256.Idx → EReal) (b : S256x256.Idx → EReal) : S10000x256.Idx → EReal :=
  Host.dotGeneral (F := Ideal) (φ₁ := .f32) (φ₂ := .f32) (DotDims.plain 10000 256 256) none a b

/-- What the body computes from its two blocks, at an entry: the sum over the contracted index. -/
theorem block_entry (x0 : Vec Ideal S200x256 .f32) (x1 : Vec Ideal S256x256 .f32) (y : S200x256.Idx) :
    k2_pay1 x0 x1 y = ∑ k : Fin 256, x0 (ix2 (y 0) k) * x1 (ix2 k (y 1)) :=
  (PlainDot.matmul_zero_apply (M := 200) (K := 256) (N := 256) dot_S200x256_S256x256_S200x256_1_0_0_1_n_n rfl none
    (truncf .bf16 (shapeCast S200x256 x0 shapeCasts_S200x256_S200x256) bitsLt_bf16_f32) (truncf .bf16 x1 bitsLt_bf16_f32) y).trans
    (by rw [shapeCast_self x0 shapeCasts_S200x256_S200x256]; rfl)

/-- The printed index maps over the 50 points: the left window and the output window sit on row block t, and every
    other block index is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region

variable (V : (c : Dev nD) → (b : Ref sig .tc) → Buf (Elt Ideal) ((c : Thread nD τ).loc b))

/-- What point t writes back is block t of the whole product. -/
theorem flushed_eq (c : Dev nD) (t : Fin cfg2.N) :
    (dat2 V c).flushed 2 t = ((cfg2.win 2).blk t).view.read (Elt Ideal) (product (V c main_v91) (V c main_arg6)) := by
  show (cfg2.win 2).cut (grid2.coords t) ((dat2 V c).after 2 t) = _
  rw [after2_2]
  unfold out2_2
  rw [View.canon_unit_zero zeros]
  simp only [View.ld_unit_zero (S := S200x256) zeros, View.ld_unit_zero (S := S256x256) zeros]
  obtain ⟨e0, e1, e2, e3, e4, e5⟩ := index_facts t
  funext j
  show k2_pay1 (iblk2 V c 0 t) (iblk2 V c 1 t) j
    = product (V c main_v91) (V c main_arg6) (((cfg2.win 2).blk t).view.emb j)
  refine (block_entry (iblk2 V c 0 t) (iblk2 V c 1 t) j).trans ?_
  refine Eq.trans ?_ (PlainDot.hostDot_apply (M := 10000) (K := 256) (N := 256) (DotDims.plain 10000 256 256) rfl none
    (V c main_v91) (V c main_arg6) (((cfg2.win 2).blk t).view.emb j)).symm
  refine Finset.sum_congr rfl fun k _ => ?_
  have hl : ((cfg2.win 0).blk t).view.emb (ix2 (j 0) k) = ix2 ((((cfg2.win 2).blk t).view.emb j) 0) k := by
    funext a; apply Fin.ext
    match a with
    | ⟨0, _⟩ => show win2_0.index t (0 : Fin 2) * 200 + 1 * (j 0).val = win2_2.index t (0 : Fin 2) * 200 + 1 * (j 0).val; omega
    | ⟨1, _⟩ => show win2_0.index t (1 : Fin 2) * 256 + 1 * k.val = k.val; omega
  have hr : ((cfg2.win 1).blk t).view.emb (ix2 k (j 1)) = ix2 k ((((cfg2.win 2).blk t).view.emb j) 1) := by
    funext a; apply Fin.ext
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega
  have key : ∀ (A : S10000x256.Idx → EReal) (B : S256x256.Idx → EReal),
      A (((cfg2.win 0).blk t).view.emb (ix2 (j 0) k)) * B (((cfg2.win 1).blk t).view.emb (ix2 k (j 1)))
        = A (ix2 ((((cfg2.win 2).blk t).view.emb j) 0) k) * B (ix2 k ((((cfg2.win 2).blk t).view.emb j) 1)) :=
    fun A B => congrArg₂ (fun a b => A a * B b) hl hr
  exact key (V c main_v91) (V c main_arg6)

/-- An index of the output array lies in point t's block iff each coordinate lies in the block's range. -/
theorem mem_block (t : Fin cfg2.N) (i : S10000x256.Idx) :
    i ∈ ((cfg2.win 2).blk t).view.set ↔ ∀ a : Fin 2, win2_2.index t a * S200x256.size a ≤ (i a).val ∧ (i a).val < win2_2.index t a * S200x256.size a + S200x256.size a := by
  show i ∈ ((View.whole main_v92).slice (win2_2.rect t)).set ↔ _
  rw [View.set_slice_whole, Rect.mem_set_unit]
  exact Iff.rfl

/-- The 50 row blocks tile the output array: row r lies in block r / 200. -/
theorem cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  have hN : cfg2.N = 50 := N_2
  refine ⟨⟨(i 0).val / 200, by rw [hN]; omega⟩, flush2_2 _, ?_⟩
  obtain ⟨-, -, -, -, e4, e5⟩ := index_facts ⟨(i 0).val / 200, by rw [hN]; omega⟩
  rw [mem_block]
  intro a
  match a with
  | ⟨0, _⟩ =>
    show win2_2.index ⟨(i 0).val / 200, _⟩ (0 : Fin 2) * 200 ≤ (i 0).val ∧ (i 0).val < win2_2.index ⟨(i 0).val / 200, _⟩ (0 : Fin 2) * 200 + 200
    rw [e4]; show (i 0).val / 200 * 200 ≤ (i 0).val ∧ (i 0).val < (i 0).val / 200 * 200 + 200; omega
  | ⟨1, _⟩ =>
    show win2_2.index ⟨(i 0).val / 200, _⟩ (1 : Fin 2) * 256 ≤ (i 1).val ∧ (i 1).val < win2_2.index ⟨(i 0).val / 200, _⟩ (1 : Fin 2) * 256 + 256
    rw [e5]; omega

/-- After the region the output array is the whole product of the two arrays as the region found them. -/
theorem output_eq (c : Dev nD) : (dat2 V c).arrAt 2 cfg2.N = product (V c main_v91) (V c main_arg6) :=
  (dat2 V c).arrAt_eq_of_cover 2 _ (fun t _ => flushed_eq V c t) cover

end Region

/-! ## The region as one host operation -/

/-- One two-operand operation: the product of the two input buffers, written into the output buffer. -/
abbrev asOp : HloOp τ sig (Elt Ideal) :=
  StableHlo.binary main_v91 main_arg6 main_v92
    ((fun l r => Net.featureProduct l r) : (⟨S10000x256, .f32⟩ : BufTy).Contents (Elt Ideal) → (⟨S256x256, .f32⟩ : BufTy).Contents (Elt Ideal) → (⟨S10000x256, .f32⟩ : BufTy).Contents (Elt Ideal))

/-- What the region leaves — its output array at what the write-backs fold to, every other buffer as entered — is
    what that one operation leaves: the output buffer holds the product, and nothing else changes. -/
theorem exit_eq (Wc : Dev nD → Valuation τ sig (Elt Ideal)) (c : Dev nD) :
    Pipeline.withArrays spec2 c (Wc c) (fun w => (dat2 (fun c b => Wc c b) c).arrAt w cfg2.N) = asOp.result (Wc c) := by
  funext b
  by_cases h : b = Proc.devRef .tc main_v92
  · subst h
    refine (Pipeline.withArrays_arr spec2 launch2.win.arr_inj c _ _ 2).trans ?_
    refine (output_eq _ c).trans ?_
    exact (StableHlo.binary_result main_v91 main_arg6 main_v92 _ _ _ _ (Wc c)).symm
  · have hb : b ∉ (asOp : HloOp τ sig (Elt Ideal)).writes := by
      show b ∉ ({Proc.devRef .tc main_v92} : Finset (DevRef τ sig))
      rw [Finset.mem_singleton]; exact h
    rw [HloOp.result_of_not_mem asOp (Wc c) hb]
    by_cases h' : ∃ w, Proc.devRef .tc (Pipeline.arrRef spec2 w) = b
    · obtain ⟨w, rfl⟩ := h'
      rw [Pipeline.withArrays_arr spec2 launch2.win.arr_inj]
      match w with
      | ⟨0, _⟩ => exact ((dat2 _ c).arrAt_in 0 rfl cfg2.N).trans (A_eq2 _ c 0)
      | ⟨1, _⟩ => exact ((dat2 _ c).arrAt_in 1 rfl cfg2.N).trans (A_eq2 _ c 1)
      | ⟨2, _⟩ => exact absurd rfl h
    · unfold Pipeline.withArrays; rw [dif_neg h']

end Cert.KernelIdeal.ProductOutput

end
-- ==== Proof.LibTypedMoves.lean ====
/-
  Reading a line of host operations back to a pure term: two facts about outlined functions' operations, and two
  rewriting loops.

  An operation of a module-local function (jnp.where, relu, log_softmax, …) is spelt over typed references: its
  function is stated at the value's type T and moved to the buffer's own type along the reference's proof that the
  two agree (`toBuf`), an operand's contents the other way (`ofBuf`).  For a buffer of the printed signature the
  value's type IS the buffer's type, so both moves are the identity:

  * `ofBuf_self`, `toBuf_self`: the identity, stated at T := the buffer's own type so that rewriting with them
    unifies T with the buffer's type by unfolding the signature once per buffer.  A goal that still carries the
    moves around a `Host.reduce` or a `select` over large operands is expensive to close by unfolding; after
    `strip_moves` it is an equation between pure terms.
  * `read_back`: the result lemmas of Lib/StableHlo/Run.lean as a rewriting loop.  After the one-pass form
    (`after_results_simp`) a buffer read that sits inside a concatenate's operand list — a dependent pair of a
    shape and an array — is left as an unrewritten chain of `.result`; this loop clears those.
-/
import Idealize.ShloMosaic.Lib.StableHlo.Run

noncomputable section

namespace Idealize.ShloMosaic.TypedMoves

open Idealize.ShloMosaic Idealize.ShloMosaic.StableHlo

/-- An operand of an outlined function's operation, read at the value's type when that is the buffer's own type:
    the move is the identity. -/
theorem ofBuf_self {sig : RefSig} {Val : EltTy → Type} (r : Ref sig .tc) (p1 : r.ty = r.ty) (p2 : r.space ≠ .host)
    (p3 : r.isScoped = false) (a : r.ty.Contents Val) : (TRef.of (T := r.ty) r p1 p2 p3).ofBuf a = a := rfl

/-- The result of an outlined function's operation, written at the buffer's own type: the same identity. -/
theorem toBuf_self {sig : RefSig} {Val : EltTy → Type} (r : Ref sig .tc) (p1 : r.ty = r.ty) (p2 : r.space ≠ .host)
    (p3 : r.isScoped = false) (v : r.ty.Contents Val) : (TRef.of (T := r.ty) r p1 p2 p3).toBuf v = v := rfl

/-- Removes the moves between a value's type and its buffer's type, one buffer at a time. -/
macro "strip_moves" : tactic => `(tactic| (repeat (first | rw [ofBuf_self] | rw [toBuf_self])))

/-- Reads a buffer back through the operations left in the goal, one rewriting step per operation and reference. -/
macro "read_back" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

end Idealize.ShloMosaic.TypedMoves

end
-- ==== Proof.KernelValue.lean ====
/-
  The idealized kernel's result is the network function of its arguments.

  The run ends with the result buffer at the fold of thirteen segments over the launch memory. Each of the three tiled
  regions acts on the buffers as one two-operand operation writing a product, so the whole fold is a fold of host
  operations: the edge rows, the first product, the first layer, the second product, the second layer, the readout
  product and the bias. Read back one operation at a time (the operations of the outlined select and maximum move their
  operands between a value's type and its buffer's own type, which is the identity), that fold is the network function
  applied to the eight argument arrays as launched.
-/
import proofs.«134955_j37383395345042_1_alg».proof.Proof.ProductInput
import proofs.«134955_j37383395345042_1_alg».proof.Proof.ProductHidden
import proofs.«134955_j37383395345042_1_alg».proof.Proof.ProductOutput
import proofs.«134955_j37383395345042_1_alg».proof.Proof.Network
import proofs.«134955_j37383395345042_1_alg».proof.Proof.LibTypedMoves

set_option pp.maxSteps 5000
set_option pp.deepTerms false

noncomputable section

namespace Cert.KernelIdeal.Whole

open Idealize.ShloMosaic Idealize.ShloMosaic.TcCoe Idealize.SL.Sem Idealize.ShloMosaic.StableHlo Idealize.ShloMosaic.TypedMoves
open Cert.KernelIdeal Cert.KernelIdeal.Gen

variable (m : (ℓ : Loc nD τ sig) → Buf (Elt Ideal) ℓ) (ρ : Dev nD → PrngReg)

/-- Each region's exit contents are its entry contents after the one operation that writes its product. -/
theorem exit_input (c : Dev nD) : W2 m ρ c = ProductInput.asOp.result (W1 m ρ c) := ProductInput.exit_eq (W1 m ρ) c
theorem exit_hidden (c : Dev nD) : W7 m ρ c = ProductHidden.asOp.result (W6 m ρ c) := ProductHidden.exit_eq (W6 m ρ) c
theorem exit_output (c : Dev nD) : W12 m ρ c = ProductOutput.asOp.result (W11 m ρ c) := ProductOutput.exit_eq (W11 m ρ) c

set_option maxRecDepth 8192 in
set_option maxHeartbeats 50400000 in
/-- The fold of the thirteen segments at the result buffer is the network of the argument arrays. -/
theorem result_eq (c : Dev nD) :
    W13 m ρ c (Proc.devRef .tc main_v95) = Net.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after hostOps3 (W12 m ρ c) (Proc.devRef .tc main_v95) = _
  rw [exit_output]
  show after hostOps3 (ProductOutput.asOp.result (after hostOps2_3 (after hostOps2_2 (after hostOps2_1 (after hostOps2 (W7 m ρ c))))))
    (Proc.devRef .tc main_v95) = _
  rw [exit_hidden]
  show after hostOps3 (ProductOutput.asOp.result (after hostOps2_3 (after hostOps2_2 (after hostOps2_1 (after hostOps2
      (ProductHidden.asOp.result (after hostOps1_3 (after hostOps1_2 (after hostOps1_1 (after hostOps1 (W2 m ρ c)))))))))))
    (Proc.devRef .tc main_v95) = _
  rw [exit_input]
  show after hostOps3 (ProductOutput.asOp.result (after hostOps2_3 (after hostOps2_2 (after hostOps2_1 (after hostOps2
      (ProductHidden.asOp.result (after hostOps1_3 (after hostOps1_2 (after hostOps1_1 (after hostOps1
        (ProductInput.asOp.result (after hostOps0 (W0 m ρ c)))))))))))))
    (Proc.devRef .tc main_v95) = _
  dsimp only [hostOps0, hostOps1, hostOps1_1, hostOps1_2, hostOps1_3, hostOps2, hostOps2_1, hostOps2_2, hostOps2_3, hostOps3,
    ProductInput.asOp, ProductHidden.asOp, ProductOutput.asOp]
  after_results_simp
  strip_moves
  read_back
  first | rfl | fail "the two terms differ"

end Cert.KernelIdeal.Whole

end
-- ==== Proof.ReferenceValue.lean ====
/-
  The reference's result is the network function of its arguments.

  The reference's run ends with the result buffer at the fold of its 126 host operations over the launch memory.
  Read back one operation at a time, that fold is a composition of the operations' functions applied to the eight
  argument arrays; an operation of an outlined function (a select against zero, a maximum with zero) moves its operands
  and its result between the value's type and the buffer's own type, and both moves are the identity. What is left
  is, operation for operation, the edge rows, two layers and the readout of the network function, with a host product
  where the network has a plain product, and the two are the same term.
-/
import proofs.«134955_j37383395345042_1_alg».proof.Proof.ReferenceRun
import proofs.«134955_j37383395345042_1_alg».proof.Proof.Gen.KernelIdeal
import proofs.«134955_j37383395345042_1_alg».proof.Proof.Network
import proofs.«134955_j37383395345042_1_alg».proof.Proof.LibTypedMoves

set_option pp.maxSteps 5000
set_option pp.deepTerms false

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.TypedMoves

set_option maxRecDepth 8192 in
set_option maxHeartbeats 50400000 in
/-- The fold of the reference's operations at the result buffer is the network of the argument arrays. -/
theorem result_eq (m : (ℓ : Loc nD τ sig) → Buf (Elt Ideal) ℓ) (c : Dev nD) :
    after (ops (F := Ideal)) (launchContents m c) (Proc.devRef .tc main_v95)
      = Cert.KernelIdeal.Net.network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  after_results_simp
  strip_moves
  read_back
  first | rfl | fail "the two terms differ"

end Cert.ReferenceIdeal.RefValue

end
-- ==== Proof.lean ====
/-
  The kernel and its reference compute the same graph network on the extended reals.

  Both programs run the same host operations around three dense products: x · W1, then (after a graph-convolution
  layer) h · W2, then (after a second layer) h · Wf, plus a bias. The reference multiplies on the host; the kernel
  multiplies in three tiled regions, 200 rows at a time, after rounding both operands to a shorter float format. On the
  extended reals the rounding is the identity and a product into a zero accumulator is the plain sum over the
  contracted index, and the row blocks tile the rows, so each region leaves in its output array exactly the host's
  product of the arrays it was given. With that, both programs compute one and the same function of the eight
  arguments (the network of Proof/Network.lean), whatever the arguments are: no finiteness is needed, since nothing
  is rearranged.

  The three frames: the two kernels' are the generated frame certificates; the reference's is its run with the result
  dropped. The idealization rewrote no operation, so nothing is owed for it.
-/
import proofs.«134955_j37383395345042_1_alg».proof.Defs
import proofs.«134955_j37383395345042_1_alg».proof.Proof.Gen.Kernel
import proofs.«134955_j37383395345042_1_alg».proof.Proof.Gen.Kernel.Frame
import proofs.«134955_j37383395345042_1_alg».proof.Proof.Gen.KernelIdeal
import proofs.«134955_j37383395345042_1_alg».proof.Proof.Gen.KernelIdeal.Frame
import proofs.«134955_j37383395345042_1_alg».proof.Proof.Gen.ReferenceIdeal
import proofs.«134955_j37383395345042_1_alg».proof.Proof.Gen.Pre_finite_inputs
import proofs.«134955_j37383395345042_1_alg».proof.Proof.KernelRun
import proofs.«134955_j37383395345042_1_alg».proof.Proof.KernelValue
import proofs.«134955_j37383395345042_1_alg».proof.Proof.ReferenceRun
import proofs.«134955_j37383395345042_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result buffer at the network function of the (agreeing) arguments. -/
theorem algebraic : Cert.algebraic_KernelIdeal_ReferenceIdeal := by
  intro m ρ m' ρ' _ hagree
  refine ⟨fun c => Cert.KernelIdeal.Net.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
